-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S16384x4096 : Shape := ⟨2, ![16384, 4096]⟩
abbrev S16384 : Shape := ⟨1, ![16384]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S2x2048x4096 .f32) (main_arg1 : FVec F S16384x4096 .f32) (main_arg2 : IVec S16384x4096 1) (main_arg3 : FVec F S16384 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384 .f32 := Host.absf main_arg3
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S2x2048x4096 : Shape := ⟨3, ![2, 2048, 4096]⟩
abbrev S16384x4096 : Shape := ⟨2, ![16384, 4096]⟩
abbrev S16384 : Shape := ⟨1, ![16384]⟩
abbrev S4096x4096 : Shape := ⟨2, ![4096, 4096]⟩
abbrev S4096x16384 : Shape := ⟨2, ![4096, 16384]⟩
abbrev S1024x1024 : Shape := ⟨2, ![1024, 1024]⟩
abbrev S2048x1024 : Shape := ⟨2, ![2048, 1024]⟩
abbrev S2048 : Shape := ⟨1, ![2048]⟩
abbrev S1024x2048 : Shape := ⟨2, ![1024, 2048]⟩
abbrev S1x2048 : Shape := ⟨2, ![1, 2048]⟩
abbrev S2x2048x16384 : Shape := ⟨3, ![2, 2048, 16384]⟩

abbrev nBuf : Space → Nat
  | .hbm => 11
  | .vmem => 8
  | .smem => 0
  | _ => 0

abbrev bufTy : (tb : Table) → Fin (tcTables nBuf tb) → BufTy
  | .hbm, ⟨0, _⟩ => ⟨S2x2048x4096, .f32⟩
  | .hbm, ⟨1, _⟩ => ⟨S16384x4096, .f32⟩
  | .hbm, ⟨2, _⟩ => ⟨S16384x4096, .i1⟩
  | .hbm, ⟨3, _⟩ => ⟨S16384, .f32⟩
  | .hbm, ⟨4, _⟩ => ⟨S16384x4096, .f32⟩
  | .hbm, ⟨5, _⟩ => ⟨S16384x4096, .f32⟩
  | .hbm, ⟨6, _⟩ => ⟨S16384x4096, .bf16⟩
  | .hbm, ⟨7, _⟩ => ⟨S4096x4096, .f32⟩
  | .hbm, ⟨8, _⟩ => ⟨S4096x4096, .bf16⟩
  | .hbm, ⟨9, _⟩ => ⟨S4096x16384, .f32⟩
  | .hbm, ⟨10, _⟩ => ⟨S2x2048x16384, .f32⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048, .f32⟩
  | .local _ .vmem, ⟨5, _⟩ => ⟨S2048, .f32⟩
  | .local _ .vmem, ⟨6, _⟩ => ⟨S1024x2048, .f32⟩
  | .local _ .vmem, ⟨7, _⟩ => ⟨S1024x2048, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  shapeCasts_S2x2048x4096_S4096x4096 : S2x2048x4096.ShapeCasts S4096x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S1024x2048 : S1x2048.Broadcasts S1024x2048
  shapeCasts_S4096x16384_S2x2048x16384 : S4096x16384.ShapeCasts S2x2048x16384
  dot_S1024x1024_S2048x1024_S1024x2048_1_1_0_0_n_n_wf : DotDims.WF S1024x1024 S2048x1024 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .bf16 = 32 ∨ (Rect.block (s := S4096x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S16384x4096.size a
  hwx0_1 : ∀ i : grid0.Coords, EltTy.bits .bf16 = 32 ∨ (Rect.block (s := S16384x4096) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S16384.size a
  hwx0_2 : ∀ i : grid0.Coords, EltTy.bits .f32 = 32 ∨ (Rect.block (s := S16384) S2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S4096x16384.size a
  hwx0_3 : ∀ i : grid0.Coords, EltTy.bits .f32 = 32 ∨ (Rect.block (s := S4096x16384) S1024x2048.size (cc0_transform_3 i) (hinb0_3 i)).WholeWords (EltTy.packing .f32)

variable [Facts₀]

def dot_S1024x1024_S2048x1024_S1024x2048_1_1_0_0_n_n : DotDims S1024x1024 S2048x1024 S1024x2048 where
  lhsContracting := [1]
  rhsContracting := [1]
  lhsNonContracting := [0]
  rhsNonContracting := [0]
  lhsBatch := []
  rhsBatch := []
  wf := dot_S1024x1024_S2048x1024_S1024x2048_1_1_0_0_n_n_wf

abbrev win0_0 : Pipeline.Window sig grid0 :=
  Pipeline.Window.ofSpec (Memref.whole main_v4) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x2048x4096 : Shape := ⟨3, ![2, 2048, 4096]⟩
abbrev S16384x4096 : Shape := ⟨2, ![16384, 4096]⟩
abbrev S16384 : Shape := ⟨1, ![16384]⟩
abbrev S2x2048x16384 : Shape := ⟨3, ![2, 2048, 16384]⟩
abbrev S1x1x16384 : Shape := ⟨3, ![1, 1, 16384]⟩

abbrev nBuf : Space → Nat
  | .hbm => 10
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S16384x4096, .f32⟩
  | .hbm, ⟨2, _⟩ => ⟨S16384x4096, .i1⟩
  | .hbm, ⟨3, _⟩ => ⟨S16384, .f32⟩
  | .hbm, ⟨4, _⟩ => ⟨S16384x4096, .f32⟩
  | .hbm, ⟨5, _⟩ => ⟨S16384x4096, .f32⟩
  | .hbm, ⟨6, _⟩ => ⟨S2x2048x16384, .f32⟩
  | .hbm, ⟨7, _⟩ => ⟨S1x1x16384, .f32⟩
  | .hbm, ⟨8, _⟩ => ⟨S2x2048x16384, .f32⟩
  | .hbm, ⟨9, _⟩ => ⟨S2x2048x16384, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S16384_S1x1x16384_2 : S16384.BroadcastsInDim S1x1x16384 (![2] : Fin 1 → Fin S1x1x16384.rank)
  bcast_S1x1x16384_S2x2048x16384_0_1_2 : S1x1x16384.BroadcastsInDim S2x2048x16384 (![0, 1, 2] : Fin 3 → Fin S2x2048x16384.rank)
  dot_S2x2048x4096_S16384x4096_S2x2048x16384_2_1_01_0_n_n_wf : DotDims.WF S2x2048x4096 S16384x4096 S2x2048x16384 [2] [1] [0, 1] [0] [] []

variable [Facts₀]

def dot_S2x2048x4096_S16384x4096_S2x2048x16384_2_1_01_0_n_n : DotDims S2x2048x4096 S16384x4096 S2x2048x16384 where
  lhsContracting := [2]
  rhsContracting := [1]
  lhsNonContracting := [0, 1]
  rhsNonContracting := [0]
  lhsBatch := []
  rhsBatch := []
  wf := dot_S2x2048x4096_S16384x4096_S2x2048x16384_2_1_01_0_n_n_wf

class Facts : Prop extends Facts₀ where

variable [Facts]
-- ==== Proof.Spec.lean ====
/-
  The function both programs compute, index by index, on the extended reals: a linear layer whose weight has been
  multiplied by a 0/1 mask beforehand,

      out[r, o] = (∑ k < 4096, X[r, k] * W[o, k]) + b[o],

  with X the 4096 flattened rows of the input and W the masked weight; and the one algebraic fact the comparison of the
  two programs needs: the sum over the 4096 columns is the ordered chain of its four sums over 1024 consecutive columns,
  started from zero. Only commutativity and associativity of addition are used, so no finiteness is asked of anything.
-/
import Idealize.ShloMosaic.PureOps.Ideal
import Idealize.ShloMosaic.Lib.ValueIdx

noncomputable section

open scoped BigOperators

namespace Cert.MaskedLinear

open Idealize.ShloMosaic Idealize.ShloMosaic.ValueIdx

/-- The flattened input: 4096 rows of 4096 features. -/
abbrev SX : Shape := ⟨2, ![4096, 4096]⟩
/-- The weight: 16384 output features by 4096 input features. -/
abbrev SW : Shape := ⟨2, ![16384, 4096]⟩
/-- The bias: one entry per output feature. -/
abbrev SB : Shape := ⟨1, ![16384]⟩
/-- The flattened output: 4096 rows of 16384 features. -/
abbrev SO : Shape := ⟨2, ![4096, 16384]⟩

/-- Column `q` of the `kb`-th group of 1024 consecutive columns. -/
def kcol (kb : Fin 4) (q : Fin 1024) : Fin 4096 :=
  ⟨kb.val * 1024 + q.val, by have := kb.isLt; have := q.isLt; omega⟩

theorem kcol_val (kb : Fin 4) (q : Fin 1024) : (kcol kb q).val = kb.val * 1024 + q.val := rfl

/-- A sum over the 4096 columns is the sum, over the four groups, of the sums inside each group. -/
theorem sum_groups {M : Type*} [AddCommMonoid M] (g : Fin 4096 → M) :
    ∑ k : Fin 4096, g k = ∑ kb : Fin 4, ∑ q : Fin 1024, g (kcol kb q) := by
  calc ∑ k : Fin 4096, g k
      = ∑ p : Fin 4 × Fin 1024, g (finProdFinEquiv p) := (Equiv.sum_comp (finProdFinEquiv (m := 4) (n := 1024)) g).symm
    _ = ∑ kb : Fin 4, ∑ q : Fin 1024, g (finProdFinEquiv (kb, q)) := Fintype.sum_prod_type _
    _ = ∑ kb : Fin 4, ∑ q : Fin 1024, g (kcol kb q) :=
        Finset.sum_congr rfl fun kb _ => Finset.sum_congr rfl fun q _ => congrArg g (Fin.ext (by
          show q.val + 1024 * kb.val = kb.val * 1024 + q.val
          omega))

/-- The share of one group of columns in the inner product of row `r` of `X` with row `o` of `W`. -/
def groupDot (X : SX.Idx → EReal) (W : SW.Idx → EReal) (r : Fin 4096) (o : Fin 16384) (kb : Fin 4) : EReal :=
  ∑ q : Fin 1024, X (ix2 r (kcol kb q)) * W (ix2 o (kcol kb q))

/-- The linear layer: entry `(r, o)` is the inner product of row `r` of `X` with row `o` of `W`, plus `b o`. -/
def lin (X : SX.Idx → EReal) (W : SW.Idx → EReal) (b : SB.Idx → EReal) : SO.Idx → EReal :=
  fun j => (∑ k : Fin 4096, X (ix2 (j 0) k) * W (ix2 (j 1) k)) + b (ix1 (j 1))

/-- The inner product accumulated group by group from zero, first group first, then the bias: the same number. -/
theorem lin_groups (X : SX.Idx → EReal) (W : SW.Idx → EReal) (b : SB.Idx → EReal) (r : Fin 4096) (o : Fin 16384) :
    ((((0 + groupDot X W r o 0) + groupDot X W r o 1) + groupDot X W r o 2) + groupDot X W r o 3) + b (ix1 o)
      = lin X W b (ix2 r o) := by
  show _ = (∑ k : Fin 4096, X (ix2 r k) * W (ix2 o k)) + b (ix1 o)
  rw [sum_groups, Fin.sum_univ_four, zero_add]
  rfl

/-! ## The batch flattened

The input arrives as 2 batches of 2048 rows; both programs treat it as 4096 rows, row `(b, s)` being row `2048 b + s`. -/

/-- The input as it arrives: 2 batches of 2048 rows of 4096 features. -/
abbrev SX3 : Shape := ⟨3, ![2, 2048, 4096]⟩
/-- The output as it is returned: 2 batches of 2048 rows of 16384 features. -/
abbrev SO3 : Shape := ⟨3, ![2, 2048, 16384]⟩

/-- Row `s` of batch `b`, among the 4096 flattened rows. -/
def flatRow (b : Fin 2) (s : Fin 2048) : Fin 4096 :=
  ⟨b.val * 2048 + s.val, by have := b.isLt; have := s.isLt; omega⟩

theorem flatRow_val (b : Fin 2) (s : Fin 2048) : (flatRow b s).val = b.val * 2048 + s.val := rfl

/-- The input read as 4096 rows: flattened row `r` is row `r % 2048` of batch `r / 2048`. -/
def flatX (x : SX3.Idx → EReal) : SX.Idx → EReal :=
  fun j => x (ix3 (⟨(j 0).val / 2048, by have := idx2_lt0 j; omega⟩ : Fin 2)
    (⟨(j 0).val % 2048, Nat.mod_lt _ (by decide)⟩ : Fin 2048) (j 1))

theorem flatX_flatRow (x : SX3.Idx → EReal) (b : Fin 2) (s : Fin 2048) (k : Fin 4096) :
    flatX x (ix2 (flatRow b s) k) = x (ix3 b s k) := by
  have hb := b.isLt
  have hs := s.isLt
  refine congrArg x (funext fun a => ?_)
  match a with
  | ⟨0, _⟩ => exact Fin.ext (by show (b.val * 2048 + s.val) / 2048 = b.val; omega)
  | ⟨1, _⟩ => exact Fin.ext (by show (b.val * 2048 + s.val) % 2048 = s.val; omega)
  | ⟨2, _⟩ => rfl

/-- The linear layer on the batched input: entry `(b, s, o)` is entry `(2048 b + s, o)` of the layer on the flattened input. -/
def lin3 (x : SX3.Idx → EReal) (W : SW.Idx → EReal) (b : SB.Idx → EReal) : SO3.Idx → EReal :=
  fun i => lin (flatX x) W b (ix2 (flatRow (i 0) (i 1)) (i 2))

/-- Written out: the inner product of row `(b, s)` of the input with row `o` of the weight, plus the bias at `o`. -/
theorem lin3_apply (x : SX3.Idx → EReal) (W : SW.Idx → EReal) (bias : SB.Idx → EReal) (b : Fin 2) (s : Fin 2048) (o : Fin 16384) :
    lin3 x W bias (ix3 b s o) = (∑ k : Fin 4096, x (ix3 b s k) * W (ix2 o k)) + bias (ix1 o) := by
  show (∑ k : Fin 4096, flatX x (ix2 (flatRow b s) k) * W (ix2 o k)) + bias (ix1 o) = _
  simp only [flatX_flatRow]

end Cert.MaskedLinear

end
-- ==== Proof.RefSide.lean ====
/-
  The reference's result, read index by index at the ideal instance, is the linear layer of `Spec`: its
  `dot_general` contracts the input's last axis with the masked weight's last axis, which is the inner product of row
  `(b, s)` of the input with row `o` of the masked weight, and its two broadcasts put the bias entry `o` at every `(b, s, o)`.
-/
import proofs.«180171_j13675175870903_2_alg».proof.Proof.Gen.ReferenceIdeal.Read
import proofs.«180171_j13675175870903_2_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.MaskedLinear

/-- The reference's last stage is the linear layer of the input, the masked weight (the weight times the mask read as
    0 or 1) and the bias. -/
theorem ref_eq_lin3 (x0 : (⟨S2x2048x4096, .f32⟩ : BufTy).Contents (Elt Ideal)) (x1 : (⟨S16384x4096, .f32⟩ : BufTy).Contents (Elt Ideal))
    (x2 : (⟨S16384x4096, .i1⟩ : BufTy).Contents (Elt Ideal)) (x3 : (⟨S16384, .f32⟩ : BufTy).Contents (Elt Ideal)) :
    val_main_v5 (F := Ideal) x0 x1 x2 x3 = lin3 x0 (val_main_v1 (F := Ideal) x1 x2) x3 := by
  funext i
  obtain ⟨b, s, o, rfl⟩ : ∃ (b : Fin 2) (s : Fin 2048) (o : Fin 16384), i = ix3 b s o := ⟨i 0, i 1, i 2, eq_ix3 i⟩
  have e1 : ∀ k : Fin 4096, lidx_main_v2 (ix3 b s o) k = ix3 b s k := fun k => funext fun a => Fin.ext (by
    match a with
    | ⟨0, _⟩ => rfl
    | ⟨1, _⟩ => rfl
    | ⟨2, _⟩ => rfl)
  have e2 : ∀ k : Fin 4096, ridx_main_v2 (ix3 b s o) k = ix2 o k := fun k => funext fun a => Fin.ext (by
    match a with
    | ⟨0, _⟩ => rfl
    | ⟨1, _⟩ => rfl)
  have e3 : idx_main_v3 (idx_main_v4 (ix3 b s o)) = ix1 o := funext fun a => Fin.ext (by
    match a with
    | ⟨0, _⟩ => rfl)
  rw [val_main_v5_apply, val_main_v2_apply, val_main_v4_apply, val_main_v3_apply, lin3_apply]
  simp only [e1, e2, e3]
  rfl

end Cert.ReferenceIdeal.RefValue

end
-- ==== Proof.Cases.lean ====
/-
  What the kernel body leaves in the output block's buffer, in each of its three cases, as a value. The body keeps a
  running block `acc`: at the first step of a reduction it stores zero and then `zero + x·wᵀ`; at a middle step it
  stores `acc + x·wᵀ`; at the last step it stores `acc + x·wᵀ` and then that plus the bias row. Every store covers
  the whole block and every load reads a whole buffer, so the last store's payload is what remains.
-/
import proofs.«180171_j13675175870903_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.CaseValue

open Cert.KernelIdeal Cert.KernelIdeal.Gen

variable {F : FTy → Type} [FloatOps F]

theorem hz : (![0, 0] : Fin 2 → Nat) = fun _ => 0 := funext fun a => by fin_cases a <;> rfl
theorem hz1 : (![0] : Fin 1 → Nat) = fun _ => 0 := funext fun a => by fin_cases a; rfl

/-- A MIDDLE step of a reduction: the buffer holding `acc` ends holding `acc + x·wᵀ`. -/
theorem out_mid (c : Dev nD) (i : grid0.Coords) (arg3 : Memref sig .tc .vmem S1024x1024 .bf16) (harg3 : arg3.IsWhole) (arg4 : Memref sig .tc .vmem S2048x1024 .bf16) (harg4 : arg4.IsWhole) (arg5 : Memref sig .tc .vmem S2048 .f32) (harg5 : arg5.IsWhole) (arg6 : Memref sig .tc .vmem S1024x2048 .f32) (harg6 : arg6.IsWhole) (hc0 : ¬cond0_0 i) (hc1 : ¬cond0_1 i)
    (x0 : Vec F S1024x1024 .bf16) (x1 : Vec F S2048x1024 .bf16) (x2 : Vec F S2048 .f32) (xo3 : Vec F S1024x2048 .f32) :
    out0_B_3 c i arg3 harg3 arg4 harg4 arg5 harg5 arg6 harg6 hc0 hc1 x0 x1 x2 xo3 = k0_pay2 xo3 x0 x1 := by
  unfold out0_B_3
  rw [View.read_writes_eq_canon _ _ _ (cover0_B_3 c i arg3 harg3 arg4 harg4 arg5 harg5 arg6 harg6 hc0 hc1 x0 x1 x2 xo3)]
  unfold kernelRun0_B
  dsimp only
  sl_unfold_words
  rw [View.canon_unit_zero hz]
  simp only [View.readAt_eq_ld, harg3.read_unread, harg4.read_unread, harg6.read_unread,
    View.ld_unit_zero (S := S1024x2048) hz, View.ld_unit_zero (S := S1024x1024) hz, View.ld_unit_zero (S := S2048x1024) hz]

/-- The FIRST step of a reduction: the buffer is zeroed, read back, and ends holding `zero + x·wᵀ`. -/
theorem out_first (c : Dev nD) (i : grid0.Coords) (arg3 : Memref sig .tc .vmem S1024x1024 .bf16) (harg3 : arg3.IsWhole) (arg4 : Memref sig .tc .vmem S2048x1024 .bf16) (harg4 : arg4.IsWhole) (arg5 : Memref sig .tc .vmem S2048 .f32) (harg5 : arg5.IsWhole) (arg6 : Memref sig .tc .vmem S1024x2048 .f32) (harg6 : arg6.IsWhole) (hc0 : cond0_0 i) (hc1 : ¬cond0_1 i)
    (x0 : Vec F S1024x1024 .bf16) (x1 : Vec F S2048x1024 .bf16) (x2 : Vec F S2048 .f32) :
    out0_A_3 c i arg3 harg3 arg4 harg4 arg5 harg5 arg6 harg6 hc0 hc1 x0 x1 x2 = k0_pay2 (k0_pay1 (F := F)) x0 x1 := by
  unfold out0_A_3
  rw [View.read_writes_eq_canon _ _ _ (cover0_A_3 c i arg3 harg3 arg4 harg4 arg5 harg5 arg6 harg6 hc0 hc1 x0 x1 x2)]
  unfold kernelRun0_A
  dsimp only
  sl_unfold_words
  rw [View.canon_cons_unit_zero (S := S1024x2048) hz, View.readCov_unit_zero (S := S1024x2048) _ hz]
  simp only [View.readAt_eq_ld, harg3.read_unread, harg4.read_unread,
    View.ld_unit_zero (S := S1024x1024) hz, View.ld_unit_zero (S := S2048x1024) hz]

/-- The LAST step of a reduction: the buffer holding `acc` ends holding `(acc + x·wᵀ) + bias`, the bias row added to every row. -/
theorem out_last (c : Dev nD) (i : grid0.Coords) (arg3 : Memref sig .tc .vmem S1024x1024 .bf16) (harg3 : arg3.IsWhole) (arg4 : Memref sig .tc .vmem S2048x1024 .bf16) (harg4 : arg4.IsWhole) (arg5 : Memref sig .tc .vmem S2048 .f32) (harg5 : arg5.IsWhole) (arg6 : Memref sig .tc .vmem S1024x2048 .f32) (harg6 : arg6.IsWhole) (hc0 : ¬cond0_0 i) (hc1 : cond0_1 i)
    (x0 : Vec F S1024x1024 .bf16) (x1 : Vec F S2048x1024 .bf16) (x2 : Vec F S2048 .f32) (xo3 : Vec F S1024x2048 .f32) :
    out0_C_3 c i arg3 harg3 arg4 harg4 arg5 harg5 arg6 harg6 hc0 hc1 x0 x1 x2 xo3 = k0_pay3 (k0_pay2 xo3 x0 x1) x2 := by
  unfold out0_C_3
  rw [View.read_writes_eq_canon _ _ _ (cover0_C_3 c i arg3 harg3 arg4 harg4 arg5 harg5 arg6 harg6 hc0 hc1 x0 x1 x2 xo3)]
  unfold kernelRun0_C
  dsimp only
  sl_unfold_words
  rw [View.canon_cons_unit_zero (S := S1024x2048) hz, View.readCov_unit_zero (S := S1024x2048) _ hz]
  simp only [View.readAt_eq_ld, harg3.read_unread, harg4.read_unread, harg5.read_unread, harg6.read_unread,
    View.ld_unit_zero (S := S1024x2048) hz, View.ld_unit_zero (S := S1024x1024) hz, View.ld_unit_zero (S := S2048x1024) hz,
    View.ld_unit_zero (S := S2048) hz1]

end Cert.KernelIdeal.CaseValue

end
-- ==== Proof.Payload.lean ====
/-
  The kernel body's three stored values, read at one entry of the output block, on the extended reals:
  the zero block is 0 everywhere; the matrix product into a zero accumulator added to the running block `acc` is
  `acc[p, o] + ∑ q < 1024, x[p, q] * w[o, q]` (both operands contract their last axis); and the last step adds
  the bias entry `o` to every row.
-/
import proofs.«180171_j13675175870903_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.PayValue

open Cert.KernelIdeal Cert.KernelIdeal.Gen Idealize.ShloMosaic Idealize.ShloMosaic.ValueIdx

/-- The zero block is `0` at every entry. -/
theorem zero_apply (j : S1024x2048.Idx) : k0_pay1 (F := Ideal) j = 0 := by
  show Ideal.ofBits .f32 0x00000000#32 = 0
  exact Ideal.ofBits_zero_f32

theorem lhs_row (j : S1024x2048.Idx) (q : dot_S1024x1024_S2048x1024_S1024x2048_1_1_0_0_n_n.contr.Idx) : (dot_S1024x1024_S2048x1024_S1024x2048_1_1_0_0_n_n.lhsIdx j q 0).val = (j 0).val := by
  unfold DotDims.lhsIdx
  rw [dif_neg (show ¬(0 : Fin S1024x1024.rank) ∈ dot_S1024x1024_S2048x1024_S1024x2048_1_1_0_0_n_n.lhsBatch by decide), dif_pos (show (0 : Fin S1024x1024.rank) ∈ dot_S1024x1024_S2048x1024_S1024x2048_1_1_0_0_n_n.lhsNonContracting by decide)]
  rfl
theorem lhs_col (j : S1024x2048.Idx) (q : dot_S1024x1024_S2048x1024_S1024x2048_1_1_0_0_n_n.contr.Idx) : (dot_S1024x1024_S2048x1024_S1024x2048_1_1_0_0_n_n.lhsIdx j q 1).val = (q ⟨0, by decide⟩).val :=
  dot_S1024x1024_S2048x1024_S1024x2048_1_1_0_0_n_n.lhsIdx_val_of_single rfl j q
theorem rhs_row (j : S1024x2048.Idx) (q : dot_S1024x1024_S2048x1024_S1024x2048_1_1_0_0_n_n.contr.Idx) : (dot_S1024x1024_S2048x1024_S1024x2048_1_1_0_0_n_n.rhsIdx j q 0).val = (j 1).val := by
  unfold DotDims.rhsIdx
  rw [dif_neg (show ¬(0 : Fin S2048x1024.rank) ∈ dot_S1024x1024_S2048x1024_S1024x2048_1_1_0_0_n_n.rhsBatch by decide), dif_pos (show (0 : Fin S2048x1024.rank) ∈ dot_S1024x1024_S2048x1024_S1024x2048_1_1_0_0_n_n.rhsNonContracting by decide)]
  rfl
theorem rhs_col (j : S1024x2048.Idx) (q : dot_S1024x1024_S2048x1024_S1024x2048_1_1_0_0_n_n.contr.Idx) : (dot_S1024x1024_S2048x1024_S1024x2048_1_1_0_0_n_n.rhsIdx j q 1).val = (q ⟨0, by decide⟩).val :=
  dot_S1024x1024_S2048x1024_S1024x2048_1_1_0_0_n_n.rhsIdx_val_of_single rfl j q

/-- One accumulation step at entry `(p, o)`: the running value there plus the inner product of row `p` of the input
    block with row `o` of the weight block. -/
theorem step_apply (acc : Vec Ideal S1024x2048 .f32) (x0 : Vec Ideal S1024x1024 .bf16) (x1 : Vec Ideal S2048x1024 .bf16)
    (p : Fin 1024) (o : Fin 2048) :
    k0_pay2 (F := Ideal) acc x0 x1 (ix2 p o) = acc (ix2 p o) + ∑ q : Fin 1024, x0 (ix2 p q) * x1 (ix2 o q) := by
  unfold k0_pay2
  rw [shapeCast_self, shapeCast_self, shapeCast_self, addf_apply]
  simp only [matmul]
  rw [Ideal.matmul_constant_zero_apply, ← Equiv.sum_comp (contrEquiv1 dot_S1024x1024_S2048x1024_S1024x2048_1_1_0_0_n_n 1024 rfl rfl).symm]
  refine congrArg (acc (ix2 p o) + ·) (Finset.sum_congr rfl fun q _ => ?_)
  have hk := contrEquiv1_symm_val dot_S1024x1024_S2048x1024_S1024x2048_1_1_0_0_n_n 1024 rfl rfl q
  have el : dot_S1024x1024_S2048x1024_S1024x2048_1_1_0_0_n_n.lhsIdx (ix2 p o) ((contrEquiv1 dot_S1024x1024_S2048x1024_S1024x2048_1_1_0_0_n_n 1024 rfl rfl).symm q) = ix2 p q := funext fun a => Fin.ext (by
    match a with
    | ⟨0, _⟩ => exact lhs_row _ _
    | ⟨1, _⟩ => exact (lhs_col _ _).trans hk)
  have er : dot_S1024x1024_S2048x1024_S1024x2048_1_1_0_0_n_n.rhsIdx (ix2 p o) ((contrEquiv1 dot_S1024x1024_S2048x1024_S1024x2048_1_1_0_0_n_n 1024 rfl rfl).symm q) = ix2 o q := funext fun a => Fin.ext (by
    match a with
    | ⟨0, _⟩ => exact rhs_row _ _
    | ⟨1, _⟩ => exact (rhs_col _ _).trans hk)
  rw [el, er]

/-- The bias row viewed as a one-row matrix reads entry `o` of the row at `(0, o)`. -/
theorem row_apply (bias : Vec Ideal S2048 .f32) (o : Fin 2048) :
    shapeCast S1x2048 bias shapeCasts_S2048_S1x2048 (ix2 (0 : Fin 1) o) = bias (ix1 o) := by
  refine shapeCast_apply bias shapeCasts_S2048_S1x2048 (ix2 (0 : Fin 1) o) (ix1 o) ?_
  rw [Shape.rowMajor_val_one, Shape.rowMajor_val_two]
  show o.val = 0 * 2048 + o.val
  omega

/-- The last step at entry `(p, o)`: the value there plus the bias entry `o`. -/
theorem bias_apply (acc : Vec Ideal S1024x2048 .f32) (bias : Vec Ideal S2048 .f32) (p : Fin 1024) (o : Fin 2048) :
    k0_pay3 (F := Ideal) acc bias (ix2 p o) = acc (ix2 p o) + bias (ix1 o) := by
  unfold k0_pay3
  rw [shapeCast_self, addf_apply]
  rw [broadcastTo_apply _ broadcasts_S1x2048_S1024x2048 (ix2 p o) (ix2 (0 : Fin 1) o) (fun a => by
    match a with
    | ⟨0, _⟩ => rfl
    | ⟨1, _⟩ => rfl), row_apply]

end Cert.KernelIdeal.PayValue

end
-- ==== Proof.Blocks.lean ====
/-
  Where each window's block sits in its array. The 128 grid points are numbered with the reduction axis fastest: point
  `n` works on the output block in block-row `(n / 4) % 4` and block-column `(n / 16) % 8`, and on the `n % 4`-th
  group of 1024 columns of the input and weight. So the input block at point `n` is rows `1024 ((n / 4) % 4) + p`,
  columns `1024 (n % 4) + q` of the flattened input; the weight block is rows `2048 ((n / 16) % 8) + o` and the same
  columns of the masked weight; the bias block is entries `2048 ((n / 16) % 8) + o` of the bias.
-/
import proofs.«180171_j13675175870903_2_alg».proof.Proof.Gen.KernelIdeal.Frame
import proofs.«180171_j13675175870903_2_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem

namespace Cert.KernelIdeal.BlockValue

open Cert.KernelIdeal Cert.KernelIdeal.Gen Idealize.ShloMosaic.ValueIdx Cert.MaskedLinear

/-- The flattened-input / output row under row `p` of the block of point `n`. -/
def rowOf (n : ℕ) (p : Fin 1024) : Fin 4096 :=
  ⟨((n / 4) % 4) * 1024 + p.val, by have := p.isLt; omega⟩
/-- The weight row / output column / bias entry under entry `o` of the block of point `n`. -/
def colOf (n : ℕ) (o : Fin 2048) : Fin 16384 :=
  ⟨((n / 16) % 8) * 2048 + o.val, by have := o.isLt; omega⟩
/-- The group of 1024 columns point `n` contracts over. -/
def grpOf (n : ℕ) : Fin 4 := ⟨n % 4, Nat.mod_lt _ (by decide)⟩

/-- The printed index maps in closed form, decided over the grid. -/
theorem idx_facts : ∀ t : Fin cfg0.N,
    win0_0.index t (0 : Fin 2) = (t.val / 4) % 4 ∧ win0_0.index t (1 : Fin 2) = t.val % 4
    ∧ win0_1.index t (0 : Fin 2) = (t.val / 16) % 8 ∧ win0_1.index t (1 : Fin 2) = t.val % 4
    ∧ win0_2.index t (0 : Fin 1) = (t.val / 16) % 8
    ∧ win0_3.index t (0 : Fin 2) = (t.val / 4) % 4 ∧ win0_3.index t (1 : Fin 2) = (t.val / 16) % 8 :=
  (by decide +kernel : ∀ t : Fin grid0.N, _)

variable (m : (ℓ : Loc nD τ sig) → Buf (Elt Ideal) ℓ)

/-- The input block at a point, entry `(p, q)`. -/
theorem xblk_apply (c : Dev nD) (t : Fin cfg0.N) (p q : Fin 1024) :
    (iblk m c 0 t : Vec Ideal S1024x1024 .bf16) (ix2 p q)
      = (V m c main_v4 : S4096x4096.Idx → EReal) (ix2 (rowOf t.val p) (kcol (grpOf t.val) q)) := by
  obtain ⟨e0, e1, -⟩ := idx_facts t
  unfold iblk
  rw [View.read_apply]
  show V m c main_v4 _ = V m c main_v4 _
  congr 1
  funext a
  apply Fin.ext
  match a with
  | ⟨0, _⟩ => show win0_0.index t (0 : Fin 2) * 1024 + 1 * p.val = ((t.val / 4) % 4) * 1024 + p.val; rw [e0]; omega
  | ⟨1, _⟩ => show win0_0.index t (1 : Fin 2) * 1024 + 1 * q.val = (t.val % 4) * 1024 + q.val; rw [e1]; omega

/-- The weight block at a point, entry `(o, q)`. -/
theorem wblk_apply (c : Dev nD) (t : Fin cfg0.N) (o : Fin 2048) (q : Fin 1024) :
    (iblk m c 1 t : Vec Ideal S2048x1024 .bf16) (ix2 o q)
      = (V m c main_v2 : S16384x4096.Idx → EReal) (ix2 (colOf t.val o) (kcol (grpOf t.val) q)) := by
  obtain ⟨-, -, e2, e3, -⟩ := idx_facts t
  unfold iblk
  rw [View.read_apply]
  show V m c main_v2 _ = V m c main_v2 _
  congr 1
  funext a
  apply Fin.ext
  match a with
  | ⟨0, _⟩ => show win0_1.index t (0 : Fin 2) * 2048 + 1 * o.val = ((t.val / 16) % 8) * 2048 + o.val; rw [e2]; omega
  | ⟨1, _⟩ => show win0_1.index t (1 : Fin 2) * 1024 + 1 * q.val = (t.val % 4) * 1024 + q.val; rw [e3]; omega

/-- The bias block at a point, entry `o`. -/
theorem bblk_apply (c : Dev nD) (t : Fin cfg0.N) (o : Fin 2048) :
    (iblk m c 2 t : Vec Ideal S2048 .f32) (ix1 o) = (V m c main_arg3 : S16384.Idx → EReal) (ix1 (colOf t.val o)) := by
  obtain ⟨-, -, -, -, e4, -⟩ := idx_facts t
  unfold iblk
  rw [View.read_apply]
  show V m c main_arg3 _ = V m c main_arg3 _
  congr 1
  funext a
  apply Fin.ext
  match a with
  | ⟨0, _⟩ => show win0_2.index t (0 : Fin 1) * 2048 + 1 * o.val = ((t.val / 16) % 8) * 2048 + o.val; rw [e4]; omega

end Cert.KernelIdeal.BlockValue

end
-- ==== Proof.Accum.lean ====
/-
  What an output block's buffer holds after each grid point, entry by entry, on the extended reals. The four points
  `n - 3, …, n` with `n % 4 = 3` work on one output block and on the four groups of 1024 columns in order: the first
  leaves `0 + d₀`, the next two add `d₁` and `d₂`, the last adds `d₃` and then the bias, `dₖ` being the share of
  group `k` in the inner product of the block's input row with its weight row. So after the last of them the block
  holds the linear layer's entries.
-/
import proofs.«180171_j13675175870903_2_alg».proof.Proof.Cases
import proofs.«180171_j13675175870903_2_alg».proof.Proof.Payload
import proofs.«180171_j13675175870903_2_alg».proof.Proof.Blocks

set_option maxRecDepth 16384

noncomputable section

open scoped BigOperators
open Idealize.ShloMosaic Idealize.ShloMosaic.TcCoe Idealize.SL.Sem

namespace Cert.KernelIdeal.AccValue

open Cert.KernelIdeal Cert.KernelIdeal.Gen Idealize.ShloMosaic.ValueIdx Cert.MaskedLinear
open Cert.KernelIdeal.CaseValue Cert.KernelIdeal.PayValue Cert.KernelIdeal.BlockValue

variable (m : (ℓ : Loc nD τ sig) → Buf (Elt Ideal) ℓ)

/-- The three arrays the region reads, as it finds them: the flattened input, the masked weight, the bias. -/
abbrev X (c : Dev nD) : S4096x4096.Idx → EReal := V m c main_v4
abbrev W (c : Dev nD) : S16384x4096.Idx → EReal := V m c main_v2
abbrev B (c : Dev nD) : S16384.Idx → EReal := V m c main_arg3

/-- The share of point `n`'s group of columns in the inner product of its input row `p` with its weight row `o`. -/
abbrev share (c : Dev nD) (n : ℕ) (p : Fin 1024) (o : Fin 2048) : EReal :=
  groupDot (X m c) (W m c) (rowOf n p) (colOf n o) (grpOf n)

/-- The inner product of the two blocks' rows at a point is that share. -/
theorem dot_eq (c : Dev nD) (t : Fin cfg0.N) (p : Fin 1024) (o : Fin 2048)
    (x0 : Vec Ideal S1024x1024 .bf16) (x1 : Vec Ideal S2048x1024 .bf16) (h0 : x0 = iblk m c 0 t) (h1 : x1 = iblk m c 1 t) :
    (∑ q : Fin 1024, x0 (ix2 p q) * x1 (ix2 o q)) = share m c t.val p o := by
  show _ = ∑ q : Fin 1024, X m c (ix2 (rowOf t.val p) (kcol (grpOf t.val) q)) * W m c (ix2 (colOf t.val o) (kcol (grpOf t.val) q))
  refine Finset.sum_congr rfl fun q _ => ?_
  rw [h0, h1, xblk_apply, wblk_apply]

/-- After the FIRST point of a reduction. -/
theorem at_first (c : Dev nD) (n : ℕ) (hn : n < cfg0.N) (h0 : n % 4 = 0) (p : Fin 1024) (o : Fin 2048) :
    outsAt0 m c n hn (ix2 p o) = 0 + share m c n p o := by
  have h1 : ¬n % 4 = 3 := by omega
  refine (congrFun (outsAt0_A m c ⟨n, hn⟩ h0 h1) (ix2 p o)).trans ?_
  refine (congrFun (out_first (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) ((hcond0_0 ⟨n, hn⟩).mpr h0) (fun h => h1 ((hcond0_1 ⟨n, hn⟩).mp h)) (iblk m c 0 ⟨n, hn⟩) (iblk m c 1 ⟨n, hn⟩) (iblk m c 2 ⟨n, hn⟩)) (ix2 p o)).trans ?_
  refine (step_apply (k0_pay1 (F := Ideal)) (iblk m c 0 ⟨n, hn⟩) (iblk m c 1 ⟨n, hn⟩) p o).trans ?_
  exact congrArg₂ (· + ·) (zero_apply _) (dot_eq m c ⟨n, hn⟩ p o (iblk m c 0 ⟨n, hn⟩) (iblk m c 1 ⟨n, hn⟩) rfl rfl)

/-- After a MIDDLE point: what the point before left, plus this point's share. -/
theorem at_mid (c : Dev nD) (n : ℕ) (hn : n < cfg0.N) (h0 : ¬n % 4 = 0) (h1 : ¬n % 4 = 3) (p : Fin 1024) (o : Fin 2048) :
    outsAt0 m c n hn (ix2 p o) = outsAt0 m c (n - 1) (Nat.lt_of_le_of_lt (Nat.sub_le _ _) hn) (ix2 p o) + share m c n p o := by
  refine (congrFun (outsAt0_B m c ⟨n, hn⟩ h0 h1) (ix2 p o)).trans ?_
  refine (congrFun (out_mid (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (fun h => h0 ((hcond0_0 ⟨n, hn⟩).mp h)) (fun h => h1 ((hcond0_1 ⟨n, hn⟩).mp h)) (iblk m c 0 ⟨n, hn⟩) (iblk m c 1 ⟨n, hn⟩) (iblk m c 2 ⟨n, hn⟩) (outsAt0 m c (n - 1) (Nat.lt_of_le_of_lt (Nat.sub_le _ _) hn))) (ix2 p o)).trans ?_
  refine (step_apply (outsAt0 m c (n - 1) (Nat.lt_of_le_of_lt (Nat.sub_le _ _) hn)) (iblk m c 0 ⟨n, hn⟩) (iblk m c 1 ⟨n, hn⟩) p o).trans ?_
  exact congrArg (outsAt0 m c (n - 1) (Nat.lt_of_le_of_lt (Nat.sub_le _ _) hn) (ix2 p o) + ·) (dot_eq m c ⟨n, hn⟩ p o (iblk m c 0 ⟨n, hn⟩) (iblk m c 1 ⟨n, hn⟩) rfl rfl)

/-- After the LAST point: what the point before left, plus this point's share, plus the bias entry. -/
theorem at_last (c : Dev nD) (n : ℕ) (hn : n < cfg0.N) (h0 : ¬n % 4 = 0) (h1 : n % 4 = 3) (p : Fin 1024) (o : Fin 2048) :
    outsAt0 m c n hn (ix2 p o)
      = (outsAt0 m c (n - 1) (Nat.lt_of_le_of_lt (Nat.sub_le _ _) hn) (ix2 p o) + share m c n p o) + B m c (ix1 (colOf n o)) := by
  refine (congrFun (outsAt0_C m c ⟨n, hn⟩ h0 h1) (ix2 p o)).trans ?_
  refine (congrFun (out_last (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (fun h => h0 ((hcond0_0 ⟨n, hn⟩).mp h)) ((hcond0_1 ⟨n, hn⟩).mpr h1) (iblk m c 0 ⟨n, hn⟩) (iblk m c 1 ⟨n, hn⟩) (iblk m c 2 ⟨n, hn⟩) (outsAt0 m c (n - 1) (Nat.lt_of_le_of_lt (Nat.sub_le _ _) hn))) (ix2 p o)).trans ?_
  refine (bias_apply (k0_pay2 (F := Ideal) (outsAt0 m c (n - 1) (Nat.lt_of_le_of_lt (Nat.sub_le _ _) hn)) (iblk m c 0 ⟨n, hn⟩) (iblk m c 1 ⟨n, hn⟩)) (iblk m c 2 ⟨n, hn⟩) p o).trans ?_
  refine congrArg₂ (· + ·) ?_ (bblk_apply m c ⟨n, hn⟩ o)
  refine (step_apply (outsAt0 m c (n - 1) (Nat.lt_of_le_of_lt (Nat.sub_le _ _) hn)) (iblk m c 0 ⟨n, hn⟩) (iblk m c 1 ⟨n, hn⟩) p o).trans ?_
  exact congrArg (outsAt0 m c (n - 1) (Nat.lt_of_le_of_lt (Nat.sub_le _ _) hn) (ix2 p o) + ·) (dot_eq m c ⟨n, hn⟩ p o (iblk m c 0 ⟨n, hn⟩) (iblk m c 1 ⟨n, hn⟩) rfl rfl)

/-- After the last point of a reduction the block holds the linear layer's entries. -/
theorem acc_full (c : Dev nD) (n : ℕ) (hn : n < cfg0.N) (h3 : n % 4 = 3) (p : Fin 1024) (o : Fin 2048) :
    outsAt0 m c n hn (ix2 p o) = lin (X m c) (W m c) (B m c) (ix2 (rowOf n p) (colOf n o)) := by
  have l2 : n - 1 < cfg0.N := Nat.lt_of_le_of_lt (Nat.sub_le _ _) hn
  have l1 : n - 1 - 1 < cfg0.N := Nat.lt_of_le_of_lt (Nat.sub_le _ _) l2
  have l0 : n - 1 - 1 - 1 < cfg0.N := Nat.lt_of_le_of_lt (Nat.sub_le _ _) l1
  rw [at_last m c n hn (by omega) h3 p o, at_mid m c (n - 1) l2 (by omega) (by omega) p o,
    at_mid m c (n - 1 - 1) l1 (by omega) (by omega) p o, at_first m c (n - 1 - 1 - 1) l0 (by omega) p o,
    ← lin_groups]
  have r2 : rowOf (n - 1) p = rowOf n p := Fin.ext (by show ((n - 1) / 4) % 4 * 1024 + p.val = (n / 4) % 4 * 1024 + p.val; omega)
  have r1 : rowOf (n - 1 - 1) p = rowOf n p := Fin.ext (by show ((n - 1 - 1) / 4) % 4 * 1024 + p.val = (n / 4) % 4 * 1024 + p.val; omega)
  have r0 : rowOf (n - 1 - 1 - 1) p = rowOf n p := Fin.ext (by show ((n - 1 - 1 - 1) / 4) % 4 * 1024 + p.val = (n / 4) % 4 * 1024 + p.val; omega)
  have c2 : colOf (n - 1) o = colOf n o := Fin.ext (by show ((n - 1) / 16) % 8 * 2048 + o.val = (n / 16) % 8 * 2048 + o.val; omega)
  have c1 : colOf (n - 1 - 1) o = colOf n o := Fin.ext (by show ((n - 1 - 1) / 16) % 8 * 2048 + o.val = (n / 16) % 8 * 2048 + o.val; omega)
  have c0 : colOf (n - 1 - 1 - 1) o = colOf n o := Fin.ext (by show ((n - 1 - 1 - 1) / 16) % 8 * 2048 + o.val = (n / 16) % 8 * 2048 + o.val; omega)
  have g3 : grpOf n = 3 := Fin.ext (by show n % 4 = 3; exact h3)
  have g2 : grpOf (n - 1) = 2 := Fin.ext (by show (n - 1) % 4 = 2; omega)
  have g1 : grpOf (n - 1 - 1) = 1 := Fin.ext (by show (n - 1 - 1) % 4 = 1; omega)
  have g0 : grpOf (n - 1 - 1 - 1) = 0 := Fin.ext (by show (n - 1 - 1 - 1) % 4 = 0; omega)
  show ((((0 + groupDot (X m c) (W m c) (rowOf (n - 1 - 1 - 1) p) (colOf (n - 1 - 1 - 1) o) (grpOf (n - 1 - 1 - 1)))
      + groupDot (X m c) (W m c) (rowOf (n - 1 - 1) p) (colOf (n - 1 - 1) o) (grpOf (n - 1 - 1)))
      + groupDot (X m c) (W m c) (rowOf (n - 1) p) (colOf (n - 1) o) (grpOf (n - 1)))
      + groupDot (X m c) (W m c) (rowOf n p) (colOf n o) (grpOf n)) + B m c (ix1 (colOf n o)) = _
  rw [r2, r1, r0, c2, c1, c0, g3, g2, g1, g0]

end Cert.KernelIdeal.AccValue

end
-- ==== Proof.Region.lean ====
/-
  The output array after the region. Only the last point of each reduction (`n % 4 = 3`) writes its block back, and
  what it writes is the linear layer's entries under that block; the 32 written blocks, 4 block-rows by 8
  block-columns, tile the 4096 by 16384 array, so the array ends holding the linear layer of the arrays the region read.
-/
import proofs.«180171_j13675175870903_2_alg».proof.Proof.Accum

set_option maxRecDepth 16384

noncomputable section

open Idealize.ShloMosaic Idealize.ShloMosaic.TcCoe Idealize.SL.Sem
open Idealize.ShloMosaic.Pipeline (Dat)

namespace Cert.KernelIdeal.RegionValue

open Cert.KernelIdeal Cert.KernelIdeal.Gen Idealize.ShloMosaic.ValueIdx Cert.MaskedLinear
open Cert.KernelIdeal.BlockValue Cert.KernelIdeal.AccValue

variable (m : (ℓ : Loc nD τ sig) → Buf (Elt Ideal) ℓ)

/-- The linear layer of the arrays the region reads. -/
abbrev Y (c : Dev nD) : S4096x16384.Idx → EReal := lin (X m c) (W m c) (B m c)

/-- Entry `(p, o)` of what a flushing point writes back is the layer's entry under it. -/
theorem flushed_entry (c : Dev nD) (t : Fin cfg0.N) (h3 : t.val % 4 = 3) (p : Fin 1024) (o : Fin 2048) :
    outsAt0 m c t.val t.isLt (ix2 p o) = Y m c (((cfg0.win 3).blk t).view.emb (ix2 p o)) := by
  obtain ⟨-, -, -, -, -, e5, e6⟩ := idx_facts t
  rw [acc_full m c t.val t.isLt h3 p o]
  show lin (X m c) (W m c) (B m c) _ = lin (X m c) (W m c) (B m c) _
  congr 1
  funext a
  apply Fin.ext
  match a with
  | ⟨0, _⟩ => show ((t.val / 4) % 4) * 1024 + p.val = win0_3.index t (0 : Fin 2) * 1024 + 1 * p.val; rw [e5]; omega
  | ⟨1, _⟩ => show ((t.val / 16) % 8) * 2048 + o.val = win0_3.index t (1 : Fin 2) * 2048 + 1 * o.val; rw [e6]; omega

/-- What a flushing point writes back is its block of the layer. -/
theorem flushed_eq (c : Dev nD) (t : Fin cfg0.N) (hf : (cfg0.win 3).flush t = true) :
    (dats m 0 c).flushed 3 t = ((cfg0.win 3).blk t).view.read (Elt Ideal) (Y m c) := by
  have h3 : t.val % 4 = 3 := (flush0_3 t).mp hf
  show (cfg0.win 3).cut (grid0.coords t) ((dats m 0 c).after 3 t) = _
  rw [after0_3]
  funext y
  show outsAt0 m c t.val t.isLt y = Y m c (((cfg0.win 3).blk t).view.emb y)
  have hy : y = ix2 (n0 := 1024) (n1 := 2048) (y 0) (y 1) := eq_ix2 (n0 := 1024) (n1 := 2048) y
  rw [hy]
  exact flushed_entry m c t h3 (y 0) (y 1)

/-- An entry of the array is under point `t`'s block iff each coordinate is in the block's range. -/
theorem mem_blk (t : Fin cfg0.N) (i : S4096x16384.Idx) :
    i ∈ ((cfg0.win 3).blk t).view.set ↔ ∀ a : Fin 2, win0_3.index t a * S1024x2048.size a ≤ (i a).val ∧ (i a).val < win0_3.index t a * S1024x2048.size a + S1024x2048.size a := by
  show i ∈ ((View.whole main_v5).slice (win0_3.rect t)).set ↔ _
  rw [View.set_slice_whole, Rect.mem_set_unit]
  exact Iff.rfl

/-- Every entry of the array is under the block of a flushing point: block-row `r / 1024`, block-column `o / 2048`. -/
theorem covered (i : S4096x16384.Idx) :
    ∃ t : Fin cfg0.N, (cfg0.win 3).flush t = true ∧ i ∈ ((cfg0.win 3).blk t).view.set := by
  have hi0 : (i 0).val < 4096 := idx2_lt0 i
  have hi1 : (i 1).val < 16384 := idx2_lt1 i
  have hN : cfg0.N = 128 := N_0
  have hlt : ((i 1).val / 2048) * 16 + ((i 0).val / 1024) * 4 + 3 < cfg0.N := by rw [hN]; omega
  obtain ⟨-, -, -, -, -, e5, e6⟩ := idx_facts ⟨((i 1).val / 2048) * 16 + ((i 0).val / 1024) * 4 + 3, hlt⟩
  refine ⟨⟨((i 1).val / 2048) * 16 + ((i 0).val / 1024) * 4 + 3, hlt⟩, (flush0_3 _).mpr (by show (((i 1).val / 2048) * 16 + ((i 0).val / 1024) * 4 + 3) % 4 = 3; omega), ?_⟩
  rw [mem_blk]
  intro a
  match a with
  | ⟨0, _⟩ =>
    show win0_3.index ⟨((i 1).val / 2048) * 16 + ((i 0).val / 1024) * 4 + 3, hlt⟩ (0 : Fin 2) * 1024 ≤ (i 0).val
      ∧ (i 0).val < win0_3.index ⟨((i 1).val / 2048) * 16 + ((i 0).val / 1024) * 4 + 3, hlt⟩ (0 : Fin 2) * 1024 + 1024
    rw [e5]
    show ((((i 1).val / 2048) * 16 + ((i 0).val / 1024) * 4 + 3) / 4) % 4 * 1024 ≤ (i 0).val
      ∧ (i 0).val < ((((i 1).val / 2048) * 16 + ((i 0).val / 1024) * 4 + 3) / 4) % 4 * 1024 + 1024
    omega
  | ⟨1, _⟩ =>
    show win0_3.index ⟨((i 1).val / 2048) * 16 + ((i 0).val / 1024) * 4 + 3, hlt⟩ (1 : Fin 2) * 2048 ≤ (i 1).val
      ∧ (i 1).val < win0_3.index ⟨((i 1).val / 2048) * 16 + ((i 0).val / 1024) * 4 + 3, hlt⟩ (1 : Fin 2) * 2048 + 2048
    rw [e6]
    show ((((i 1).val / 2048) * 16 + ((i 0).val / 1024) * 4 + 3) / 16) % 8 * 2048 ≤ (i 1).val
      ∧ (i 1).val < ((((i 1).val / 2048) * 16 + ((i 0).val / 1024) * 4 + 3) / 16) % 8 * 2048 + 2048
    omega

/-- The output array after the region is the linear layer of the arrays the region read. -/
theorem final (c : Dev nD) : (dats m 0 c).arrAt 3 cfg0.N = Y m c :=
  (dats m 0 c).arrAt_eq_of_cover 3 (Y m c) (flushed_eq m c) covered

end Cert.KernelIdeal.RegionValue

end
-- ==== Proof.KernelRun.lean ====
/-
  The kernel's whole run at the ideal instance. Before the region the host multiplies the weight by the mask (read as
  0 or 1) and flattens the input's two leading axes into 4096 rows; the two changes of float format are the identity on
  the extended reals. After the region the host splits the 4096 rows of the output back into 2 batches of 2048. So the
  result is the linear layer of the input, the masked weight and the bias, entry `(b, s, o)` being entry
  `(2048 b + s, o)` of the region's output array.
-/
import proofs.«180171_j13675175870903_2_alg».proof.Proof.Region
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.StableHlo
open Idealize.ShloMosaic.Pipeline (Dat)

namespace Cert.KernelIdeal.RunValue

open Cert.KernelIdeal Cert.KernelIdeal.Gen Idealize.ShloMosaic.ValueIdx Cert.MaskedLinear
open Cert.KernelIdeal.AccValue Cert.KernelIdeal.RegionValue

variable (m : (ℓ : Loc nD τ sig) → Buf (Elt Ideal) ℓ) (ρ : Dev nD → PrngReg)

/-- The masked weight: the weight times the mask read as 0 or 1. -/
abbrev maskedW (c : Dev nD) : S16384x4096.Idx → EReal :=
  mulf (F := Ideal) (m ((c : Thread nD τ).loc main_arg1)) (uitofp (F := Ideal) .f32 (m ((c : Thread nD τ).loc main_arg2)))

/-- The region finds the input flattened to 4096 rows. -/
theorem X_eq (c : Dev nD) : X m c = flatX (m ((c : Thread nD τ).loc main_arg0)) := by
  have e : (V m c main_v4 : S4096x4096.Idx → EReal)
      = (truncf (F := Ideal) .bf16 (shapeCast S4096x4096 (m ((c : Thread nD τ).loc main_arg0)) shapeCasts_S2x2048x4096_S4096x4096) bitsLt_bf16_f32 : FVec Ideal S4096x4096 .bf16) := by
    show StableHlo.after hostOps0 (fun b => m (c, b)) (Proc.devRef .tc main_v4) = _
    after_results
    rfl
  funext j
  obtain ⟨r, k, rfl⟩ : ∃ (r : Fin 4096) (k : Fin 4096), j = ix2 r k := ⟨j 0, j 1, eq_ix2 j⟩
  have hr := r.isLt
  show (V m c main_v4 : S4096x4096.Idx → EReal) (ix2 r k) = _
  rw [e, truncf_apply]
  refine shapeCast_apply (s := S2x2048x4096) (t := S4096x4096) _ shapeCasts_S2x2048x4096_S4096x4096 (ix2 r k)
    (ix3 (⟨r.val / 2048, by omega⟩ : Fin 2) (⟨r.val % 2048, Nat.mod_lt _ (by decide)⟩ : Fin 2048) k) ?_
  rw [Shape.rowMajor_val_three, Shape.rowMajor_val_two]
  show (r.val / 2048 * 2048 + r.val % 2048) * 4096 + k.val = r.val * 4096 + k.val
  omega

/-- The region finds the masked weight. -/
theorem W_eq (c : Dev nD) : W m c = maskedW m c := by
  have e : (V m c main_v2 : S16384x4096.Idx → EReal)
      = (truncf (F := Ideal) .bf16 (maskedW m c) bitsLt_bf16_f32 : FVec Ideal S16384x4096 .bf16) := by
    show StableHlo.after hostOps0 (fun b => m (c, b)) (Proc.devRef .tc main_v2) = _
    after_results
  funext j
  show (V m c main_v2 : S16384x4096.Idx → EReal) j = _
  rw [e, truncf_apply]

/-- The region finds the bias as launched. -/
theorem B_eq (c : Dev nD) : B m c = (m ((c : Thread nD τ).loc main_arg3)) := V_main_arg3 m c

/-- The result buffer after the run: the region's output array with its rows split into 2 batches of 2048. -/
theorem tail_eq (c : Dev nD) :
    Pipeline.afterTail₀ cfgs (dats m) 0 (V0 m) [hostOps1] c main_v6
      = shapeCast S2x2048x16384 (Y m c) shapeCasts_S4096x16384_S2x2048x16384 := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.tc.devRef main_v5) = Y m c :=
    (Pipeline.withArrays_arr spec0 launch0.win.arr_inj c _ _ 3).trans (final m c)
  funext i
  show shapeCast S2x2048x16384 (Pipeline.withArrays (cfgs 0).spec c (V0 m c) (fun w => (dats m 0 c).arrAt w (cfgs 0).N) (Proc.tc.devRef main_v5)) shapeCasts_S4096x16384_S2x2048x16384 i = _
  rw [e]

/-- That buffer is the linear layer of the input, the masked weight and the bias. -/
theorem result_eq (c : Dev nD) :
    Pipeline.afterTail₀ cfgs (dats m) 0 (V0 m) [hostOps1] c main_v6
      = lin3 (m ((c : Thread nD τ).loc main_arg0)) (maskedW m c) (m ((c : Thread nD τ).loc main_arg3)) := by
  rw [tail_eq]
  funext i
  obtain ⟨b, s, o, rfl⟩ : ∃ (b : Fin 2) (s : Fin 2048) (o : Fin 16384), i = ix3 b s o := ⟨i 0, i 1, i 2, eq_ix3 i⟩
  have hb := b.isLt
  have hs := s.isLt
  rw [shapeCast_apply (s := S4096x16384) (t := S2x2048x16384) (Y m c) shapeCasts_S4096x16384_S2x2048x16384 (ix3 b s o) (ix2 (flatRow b s) o) (by
    rw [Shape.rowMajor_val_two, Shape.rowMajor_val_three]
    show (b.val * 2048 + s.val) * 16384 + o.val = (b.val * 2048 + s.val) * 16384 + o.val
    rfl)]
  show lin (X m c) (W m c) (B m c) (ix2 (flatRow b s) o) = lin (flatX (m ((c : Thread nD τ).loc main_arg0))) (maskedW m c) (m ((c : Thread nD τ).loc main_arg3)) (ix2 (flatRow b s) o)
  rw [X_eq, W_eq, B_eq]

/-- The run, read: the result at the linear layer, the four arguments unchanged. -/
theorem run : θ_run defs (onTc (τ := τ) (main (F := Ideal))) ⟨m, fun _ => 0, ρ⟩ fun r => ∀ c : Dev nD,
      r.2.mem ((c : Thread nD τ).loc main_v6) = lin3 (m ((c : Thread nD τ).loc main_arg0)) (maskedW m c) (m ((c : Thread nD τ).loc main_arg3))
      ∧ r.2.mem ((c : Thread nD τ).loc main_arg0) = (m ((c : Thread nD τ).loc main_arg0))
      ∧ r.2.mem ((c : Thread nD τ).loc main_arg1) = (m ((c : Thread nD τ).loc main_arg1))
      ∧ r.2.mem ((c : Thread nD τ).loc main_arg2) = (m ((c : Thread nD τ).loc main_arg2))
      ∧ r.2.mem ((c : Thread nD τ).loc main_arg3) = (m ((c : Thread nD τ).loc main_arg3)) :=
  (θ_run defs _ _).mono (fun r h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c)))⟩)
    (run_main m ρ)

end Cert.KernelIdeal.RunValue

end
-- ==== Proof.lean ====
/- The proof of `Cert.Claim`: a tiled linear layer with a masked weight against its one-line reference.

   Both programs compute, for every batch `b`, row `s` and output feature `o`,
       out[b, s, o] = (∑ k < 4096, x[b, s, k] * (weight[o, k] * mask[o, k])) + bias[o]
   on the extended reals (`Spec`). The reference does so in one contraction and one addition (`RefSide`). The kernel
   flattens the batch to 4096 rows, cuts the output into 4 by 8 blocks of 1024 by 2048 entries and the contraction into
   4 groups of 1024 columns, and runs the four groups of one block on consecutive grid points, keeping the block in
   place: the first point stores zero and adds the first group's share, the next two add theirs, the last adds its own
   and then the bias, and only then is the block written back (`Cases`, `Payload`, `Blocks`, `Accum`). The
   written blocks tile the output (`Region`), which the host reshapes back to batches (`KernelRun`). The two
   sides meet in the one law that a sum over 4096 columns is the ordered chain of its four sums over 1024 columns
   started from zero (`Spec.lin_groups`), which uses only that addition is commutative and associative; so the
   precondition on the inputs is never opened. The changes of float format are the identity on the extended reals,
   the kernel read on the extended reals is its own text with no operation replaced (`preserves` is `True`), and the three
   frames are the programs' runs with the value dropped. -/
import proofs.«180171_j13675175870903_2_alg».proof.Defs
import proofs.«180171_j13675175870903_2_alg».proof.Proof.Gen.Kernel
import proofs.«180171_j13675175870903_2_alg».proof.Proof.Gen.Kernel.Skeleton
import proofs.«180171_j13675175870903_2_alg».proof.Proof.Gen.Kernel.Launch
import proofs.«180171_j13675175870903_2_alg».proof.Proof.Gen.Kernel.Points
import proofs.«180171_j13675175870903_2_alg».proof.Proof.Gen.Kernel.Frame
import proofs.«180171_j13675175870903_2_alg».proof.Proof.Gen.KernelIdeal
import proofs.«180171_j13675175870903_2_alg».proof.Proof.Gen.KernelIdeal.Skeleton
import proofs.«180171_j13675175870903_2_alg».proof.Proof.Gen.KernelIdeal.Launch
import proofs.«180171_j13675175870903_2_alg».proof.Proof.Gen.KernelIdeal.Points
import proofs.«180171_j13675175870903_2_alg».proof.Proof.Gen.KernelIdeal.Frame
import proofs.«180171_j13675175870903_2_alg».proof.Proof.Gen.ReferenceIdeal
import proofs.«180171_j13675175870903_2_alg».proof.Proof.Gen.ReferenceIdeal.Run
import proofs.«180171_j13675175870903_2_alg».proof.Proof.Gen.ReferenceIdeal.Read
import proofs.«180171_j13675175870903_2_alg».proof.Proof.Gen.Pre_finite_inputs
import proofs.«180171_j13675175870903_2_alg».proof.Proof.RefSide
import proofs.«180171_j13675175870903_2_alg».proof.Proof.KernelRun
import Idealize.ShloMosaic.Adequacy
import Idealize.ShloMosaic.Init

noncomputable section

namespace Cert.Proof

open Idealize.ShloMosaic Idealize.SL.Sem Cert.MaskedLinear

/-- The word-level kernel runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel read on the extended reals is its own text: no operation was replaced, so there is nothing to preserve. -/
theorem preserves : Cert.preserves_Kernel_KernelIdeal := trivial

/-- Read on the extended reals, both programs end with the linear layer of the input, the masked weight and the bias: the kernel by its
    run read back block by block, the reference by its one contraction; the arguments agree, so the results do. -/
theorem algebraic : Cert.algebraic_KernelIdeal_ReferenceIdeal := by
  intro m ρ m' ρ' _ hagree
  refine ⟨fun c => lin3 (m ((c.tc : Thread Cert.KernelIdeal.nD Cert.KernelIdeal.τ).loc Cert.KernelIdeal.main_arg0)) (Cert.KernelIdeal.RunValue.maskedW m c)
      (m ((c.tc : Thread Cert.KernelIdeal.nD Cert.KernelIdeal.τ).loc Cert.KernelIdeal.main_arg3)), Cert.KernelIdeal.RunValue.run m ρ, ?_⟩
  refine (θ_run Cert.ReferenceIdeal.defs _ _).mono (fun _ h c => ⟨(h c).1.trans ?_, (h c).2⟩) (Cert.ReferenceIdeal.Value.run (F := Ideal) m' ρ')
  rw [Cert.ReferenceIdeal.Read.val_main_v5_eq, Cert.ReferenceIdeal.RefValue.ref_eq_lin3, (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
